-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x128x128x128 : Shape := ⟨5, ![4, 3, 128, 128, 128]⟩
abbrev S4x1x128x128x128 : Shape := ⟨5, ![4, 1, 128, 128, 128]⟩
abbrev S_ : Shape := ⟨0, ![]⟩

class Facts : Prop where
  bcast_S_S4x3x128x128x128 : S_.BroadcastsInDim S4x3x128x128x128 (![] : Fin 0 → Fin S4x3x128x128x128.rank)
  reducesTo_S4x3x128x128x128_S_d0_1_2_3_4 : S4x3x128x128x128.ReducesTo [0, 1, 2, 3, 4] S_
  h_S_ : 0 < S_.numel
  bcast_S_S4x1x128x128x128 : S_.BroadcastsInDim S4x1x128x128x128 (![] : Fin 0 → Fin S4x1x128x128x128.rank)
  reducesTo_S4x1x128x128x128_S_d0_1_2_3_4 : S4x1x128x128x128.ReducesTo [0, 1, 2, 3, 4] S_

variable [Facts]

def fn {F : FTy → Type} [FloatOps F] (main_arg0 : FVec F S4x3x128x128x128 .f32) (main_arg1 : FVec F S4x1x128x128x128 .f32) : IVec S_ 1 :=
  let main_v0 : FVec F S4x3x128x128x128 .f32 := Host.absf main_arg0
  let main_cst : FVec F S_ .f32 := constant S_ .f32 0x7F800000#32
  let main_v1 : FVec F S4x3x128x128x128 .f32 := broadcastInDim S4x3x128x128x128 ![] bcast_S_S4x3x128x128x128 main_cst
  let main_v2 : IVec S4x3x128x128x128 1 := cmpf .olt main_v0 main_v1
  let main_c : IVec S_ 1 := constantI S_ 1 1#1
  let main_v3 : IVec S_ 1 := (fun x v => Host.reduce IntOp.andi x v reducesTo_S4x3x128x128x128_S_d0_1_2_3_4 h_S_) main_v2 main_c
  let main_v4 : FVec F S4x1x128x128x128 .f32 := Host.absf main_arg1
  let main_cst_0 : FVec F S_ .f32 := constant S_ .f32 0x7F800000#32
  let main_v5 : FVec F S4x1x128x128x128 .f32 := broadcastInDim S4x1x128x128x128 ![] bcast_S_S4x1x128x128x128 main_cst_0
  let main_v6 : IVec S4x1x128x128x128 1 := cmpf .olt main_v4 main_v5
  let main_c_1 : IVec S_ 1 := constantI S_ 1 1#1
  let main_v7 : IVec S_ 1 := (fun x v => Host.reduce IntOp.andi x v reducesTo_S4x1x128x128x128_S_d0_1_2_3_4 h_S_) main_v6 main_c_1
  let main_v8 : IVec S_ 1 := andi main_v3 main_v7
  main_v8
-- ==== Kernel.lean ====
abbrev S4x3x128x128x128 : Shape := ⟨5, ![4, 3, 128, 128, 128]⟩
abbrev S4x1x128x128x128 : Shape := ⟨5, ![4, 1, 128, 128, 128]⟩
abbrev S4x128x128x3x128 : Shape := ⟨5, ![4, 128, 128, 3, 128]⟩
abbrev S4x128x128x128 : Shape := ⟨4, ![4, 128, 128, 128]⟩
abbrev S1x3x16x128x128 : Shape := ⟨5, ![1, 3, 16, 128, 128]⟩
abbrev S1x1x16x128x128 : Shape := ⟨5, ![1, 1, 16, 128, 128]⟩
abbrev S1x16x128x3x128 : Shape := ⟨5, ![1, 16, 128, 3, 128]⟩
abbrev S1x16x128x128 : Shape := ⟨4, ![1, 16, 128, 128]⟩
abbrev S16x128x128 : Shape := ⟨3, ![16, 128, 128]⟩
abbrev S1x16x128x1x128 : Shape := ⟨5, ![1, 16, 128, 1, 128]⟩
abbrev S4x128x128x128x3 : Shape := ⟨5, ![4, 128, 128, 128, 3]⟩
abbrev S8388608x3 : Shape := ⟨2, ![8388608, 3]⟩
abbrev S8388608 : Shape := ⟨1, ![8388608]⟩
abbrev S_ : Shape := ⟨0, ![]⟩
abbrev S8388608x1 : Shape := ⟨2, ![8388608, 1]⟩

abbrev nBuf : Space → Nat
  | .hbm => 44
  | .vmem => 8
  | .smem => 0
  | _ => 0

abbrev bufTy : (tb : Table) → Fin (tcTables nBuf tb) → BufTy
  | .hbm, ⟨0, _⟩ => ⟨S4x3x128x128x128, .f32⟩
  | .hbm, ⟨1, _⟩ => ⟨S4x1x128x128x128, .f32⟩
  | .hbm, ⟨2, _⟩ => ⟨S4x128x128x3x128, .f32⟩
  | .hbm, ⟨3, _⟩ => ⟨S4x128x128x128, .i32⟩
  | .hbm, ⟨4, _⟩ => ⟨S4x128x128x128x3, .f32⟩
  | .hbm, ⟨5, _⟩ => ⟨S8388608x3, .f32⟩
  | .hbm, ⟨6, _⟩ => ⟨S8388608, .i32⟩
  | .hbm, ⟨7, _⟩ => ⟨S_, .i32⟩
  | .hbm, ⟨8, _⟩ => ⟨S8388608, .i32⟩
  | .hbm, ⟨9, _⟩ => ⟨S8388608, .i1⟩
  | .hbm, ⟨10, _⟩ => ⟨S8388608, .i1⟩
  | .hbm, ⟨11, _⟩ => ⟨S_, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608, .i32⟩
  | .hbm, ⟨19, _⟩ => ⟨S_, .i32⟩
  | .hbm, ⟨20, _⟩ => ⟨S8388608, .i32⟩
  | .hbm, ⟨21, _⟩ => ⟨S8388608, .i1⟩
  | .hbm, ⟨22, _⟩ => ⟨S_, .i32⟩
  | .hbm, ⟨23, _⟩ => ⟨S8388608, .i32⟩
  | .hbm, ⟨24, _⟩ => ⟨S8388608, .i32⟩
  | .hbm, ⟨25, _⟩ => ⟨S8388608, .i32⟩
  | .hbm, ⟨26, _⟩ => ⟨S8388608x1, .i32⟩
  | .hbm, ⟨27, _⟩ => ⟨S8388608x3, .f32⟩
  | .hbm, ⟨28, _⟩ => ⟨S_, .i32⟩
  | .hbm, ⟨29, _⟩ => ⟨S8388608, .i32⟩
  | .hbm, ⟨30, _⟩ => ⟨S8388608, .i1⟩
  | .hbm, ⟨31, _⟩ => ⟨S_, .i32⟩
  | .hbm, ⟨32, _⟩ => ⟨S8388608, .i32⟩
  | .hbm, ⟨33, _⟩ => ⟨S8388608, .i32⟩
  | .hbm, ⟨34, _⟩ => ⟨S8388608, .i32⟩
  | .hbm, ⟨35, _⟩ => ⟨S8388608x1, .i32⟩
  | .hbm, ⟨36, _⟩ => ⟨S8388608, .i1⟩
  | .hbm, ⟨37, _⟩ => ⟨S8388608x1, .i1⟩
  | .hbm, ⟨38, _⟩ => ⟨S8388608x1, .f32⟩
  | .hbm, ⟨39, _⟩ => ⟨S8388608x3, .f32⟩
  | .hbm, ⟨40, _⟩ => ⟨S8388608x3, .f32⟩
  | .hbm, ⟨41, _⟩ => ⟨S8388608, .i32⟩
  | .hbm, ⟨42, _⟩ => ⟨S_, .i32⟩
  | .hbm, ⟨43, _⟩ => ⟨S_, .i32⟩
  | .local _ .vmem, ⟨0, _⟩ => ⟨S1x3x16x128x128, .f32⟩
  | .local _ .vmem, ⟨1, _⟩ => ⟨S1x3x16x128x128, .f32⟩
  | .local _ .vmem, ⟨2, _⟩ => ⟨S1x1x16x128x128, .f32⟩
  | .local _ .vmem, ⟨3, _⟩ => ⟨S1x1x16x128x128, .f32⟩
  | .local _ .vmem, ⟨4, _⟩ => ⟨S1x16x128x3x128, .f32⟩
  | .local _ .vmem, ⟨5, _⟩ => ⟨S1x16x128x3x128, .f32⟩
  | .local _ .vmem, ⟨6, _⟩ => ⟨S1x16x128x128, .i32⟩
  | .local _ .vmem, ⟨7, _⟩ => ⟨S1x16x128x128, .i32⟩
  | _, _ => ⟨S4x3x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_call1_v0 : Ref sig .tc := ⟨.hbm, 16, rfl⟩
abbrev main_call1_v1_0 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x3x16x128x128_S1x1x16x128x128_0_0_0_0_0 : ∀ a, (![0, 0, 0, 0, 0] : Fin 5 → Nat) a + S1x1x16x128x128.size a ≤ S1x3x16x128x128.size a
  h_S1x1x16x128x128 : 0 < S1x1x16x128x128.numel
  shapeCasts_S1x1x16x128x128_S16x128x128 : S1x1x16x128x128.ShapeCasts S16x128x128
  inb_S1x16x128x3x128_S1x16x128x1x128_0_0_0_0_0 : ∀ a, (![0, 0, 0, 0, 0] : Fin 5 → Nat) a + S1x16x128x1x128.size a ≤ S1x16x128x3x128.size a
  h_S1x16x128x1x128 : 0 < S1x16x128x1x128.numel
  shapeCasts_S1x16x128x1x128_S16x128x128 : S1x16x128x1x128.ShapeCasts S16x128x128
  shapeCasts_S16x128x128_S1x16x128x1x128 : S16x128x128.ShapeCasts S1x16x128x1x128
  inb_S1x3x16x128x128_S1x1x16x128x128_0_1_0_0_0 : ∀ a, (![0, 1, 0, 0, 0] : Fin 5 → Nat) a + S1x1x16x128x128.size a ≤ S1x3x16x128x128.size a
  inb_S1x16x128x3x128_S1x16x128x1x128_0_0_0_1_0 : ∀ a, (![0, 0, 0, 1, 0] : Fin 5 → Nat) a + S1x16x128x1x128.size a ≤ S1x16x128x3x128.size a
  inb_S1x3x16x128x128_S1x1x16x128x128_0_2_0_0_0 : ∀ a, (![0, 2, 0, 0, 0] : Fin 5 → Nat) a + S1x1x16x128x128.size a ≤ S1x3x16x128x128.size a
  inb_S1x16x128x3x128_S1x16x128x1x128_0_0_0_2_0 : ∀ a, (![0, 0, 0, 2, 0] : Fin 5 → Nat) a + S1x16x128x1x128.size a ≤ S1x16x128x3x128.size a
  inb_S1x1x16x128x128_S1x1x16x128x128_0_0_0_0_0 : ∀ a, (![0, 0, 0, 0, 0] : Fin 5 → Nat) a + S1x1x16x128x128.size a ≤ S1x1x16x128x128.size a
  natLt_1_32 : 1 < 32
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  transposes_S4x128x128x3x128_S4x128x128x128x3_0_1_2_4_3 : S4x128x128x3x128.Transposes [0, 1, 2, 4, 3] S4x128x128x128x3
  shapeCasts_S4x128x128x128x3_S8388608x3 : S4x128x128x128x3.ShapeCasts S8388608x3
  shapeCasts_S4x128x128x128_S8388608 : S4x128x128x128.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  reducesTo_S8388608_S_d0 : S8388608.ReducesTo [0] S_
  h_S_ : 0 < S_.numel
  gather_S8388608x3_S8388608x1_S8388608x3_1_0_n_n_0_1_13_wf : GatherDims.WF S8388608x3 S8388608x1 S8388608x3 [1] [0] [] [0] [] 1 ![1, 3]
  gather_S8388608_S8388608x1_S8388608_n_0_n_n_0_1_1_wf : GatherDims.WF S8388608 S8388608x1 S8388608 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x128x128.size a ≤ S4x3x128x128x128.size a
  hwx0_0 : ∀ i : grid0.Coords, EltTy.bits .f32 = 32 ∨ (Rect.block (s := S4x3x128x128x128) S1x3x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x128x128.size a ≤ S4x1x128x128x128.size a
  hwx0_1 : ∀ i : grid0.Coords, EltTy.bits .f32 = 32 ∨ (Rect.block (s := S4x1x128x128x128) S1x1x16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x3x128.size a ≤ S4x128x128x3x128.size a
  hwx0_2 : ∀ i : grid0.Coords, EltTy.bits .f32 = 32 ∨ (Rect.block (s := S4x128x128x3x128) S1x16x128x3x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x128.size a ≤ S4x128x128x128.size a
  hwx0_3 : ∀ i : grid0.Coords, EltTy.bits .i32 = 32 ∨ (Rect.block (s := S4x128x128x128) S1x16x128x128.size (cc0_transform_3 i) (hinb0_3 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S8388608x3_S8388608x1_S8388608x3_1_0_n_n_0_1_13 : GatherDims S8388608x3 S8388608x1 S8388608x3 where
  offsetDims := [1]
  collapsedSliceDims := [0]
  operandBatchingDims := []
  startIndicesBatchingDims := []
  startIndexMap := [0]
  indexVectorDim := 1
  sliceSizes := ![1, 3]
  wf := gather_S8388608x3_S8388608x1_S8388608x3_1_0_n_n_0_1_13_wf
def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf

abbrev win0_0 : Pipeline.Window sig grid0 :=
  Pipeline.Window.ofSpec (Memref.whole main_arg0) S1x3x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x16x128x3x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x16x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3x128x128x128 : Shape := ⟨5, ![4, 3, 128, 128, 128]⟩
abbrev S4x1x128x128x128 : Shape := ⟨5, ![4, 1, 128, 128, 128]⟩
abbrev S4x128x128x128x3 : Shape := ⟨5, ![4, 128, 128, 128, 3]⟩
abbrev S8388608x3 : Shape := ⟨2, ![8388608, 3]⟩
abbrev S8388608 : Shape := ⟨1, ![8388608]⟩
abbrev S_ : Shape := ⟨0, ![]⟩
abbrev S8388608x1 : Shape := ⟨2, ![8388608, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x3x128x128x128, .f32⟩
  | .hbm, ⟨1, _⟩ => ⟨S4x1x128x128x128, .f32⟩
  | .hbm, ⟨2, _⟩ => ⟨S4x128x128x128x3, .f32⟩
  | .hbm, ⟨3, _⟩ => ⟨S8388608x3, .f32⟩
  | .hbm, ⟨4, _⟩ => ⟨S8388608, .f32⟩
  | .hbm, ⟨5, _⟩ => ⟨S_, .f32⟩
  | .hbm, ⟨6, _⟩ => ⟨S8388608, .f32⟩
  | .hbm, ⟨7, _⟩ => ⟨S8388608, .i1⟩
  | .hbm, ⟨8, _⟩ => ⟨S_, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S8388608, .i32⟩
  | .hbm, ⟨13, _⟩ => ⟨S8388608, .i32⟩
  | .hbm, ⟨14, _⟩ => ⟨S8388608, .i32⟩
  | .hbm, ⟨15, _⟩ => ⟨S8388608, .i32⟩
  | .hbm, ⟨16, _⟩ => ⟨S_, .i32⟩
  | .hbm, ⟨17, _⟩ => ⟨S8388608, .i32⟩
  | .hbm, ⟨18, _⟩ => ⟨S8388608, .i1⟩
  | .hbm, ⟨19, _⟩ => ⟨S_, .i32⟩
  | .hbm, ⟨20, _⟩ => ⟨S8388608, .i32⟩
  | .hbm, ⟨21, _⟩ => ⟨S8388608, .i32⟩
  | .hbm, ⟨22, _⟩ => ⟨S8388608, .i32⟩
  | .hbm, ⟨23, _⟩ => ⟨S8388608x1, .i32⟩
  | .hbm, ⟨24, _⟩ => ⟨S8388608x3, .f32⟩
  | .hbm, ⟨25, _⟩ => ⟨S_, .i32⟩
  | .hbm, ⟨26, _⟩ => ⟨S8388608, .i32⟩
  | .hbm, ⟨27, _⟩ => ⟨S8388608, .i1⟩
  | .hbm, ⟨28, _⟩ => ⟨S_, .i32⟩
  | .hbm, ⟨29, _⟩ => ⟨S8388608, .i32⟩
  | .hbm, ⟨30, _⟩ => ⟨S8388608, .i32⟩
  | .hbm, ⟨31, _⟩ => ⟨S8388608, .i32⟩
  | .hbm, ⟨32, _⟩ => ⟨S8388608x1, .i32⟩
  | .hbm, ⟨33, _⟩ => ⟨S8388608, .i1⟩
  | .hbm, ⟨34, _⟩ => ⟨S8388608x1, .i1⟩
  | .hbm, ⟨35, _⟩ => ⟨S8388608x1, .f32⟩
  | .hbm, ⟨36, _⟩ => ⟨S8388608x3, .f32⟩
  | .hbm, ⟨37, _⟩ => ⟨S8388608x3, .f32⟩
  | .hbm, ⟨38, _⟩ => ⟨S8388608, .i32⟩
  | .hbm, ⟨39, _⟩ => ⟨S_, .i32⟩
  | .hbm, ⟨40, _⟩ => ⟨S_, .i32⟩
  | _, _ => ⟨S4x3x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_call1_v0 : Ref sig .tc := ⟨.hbm, 13, rfl⟩
abbrev main_call1_v1_0 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  transposes_S4x3x128x128x128_S4x128x128x128x3_0_2_3_4_1 : S4x3x128x128x128.Transposes [0, 2, 3, 4, 1] S4x128x128x128x3
  shapeCasts_S4x128x128x128x3_S8388608x3 : S4x128x128x128x3.ShapeCasts S8388608x3
  shapeCasts_S4x1x128x128x128_S8388608 : S4x1x128x128x128.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  natLt_1_32 : 1 < 32
  reducesTo_S8388608_S_d0 : S8388608.ReducesTo [0] S_
  h_S_ : 0 < S_.numel
  gather_S8388608x3_S8388608x1_S8388608x3_1_0_n_n_0_1_13_wf : GatherDims.WF S8388608x3 S8388608x1 S8388608x3 [1] [0] [] [0] [] 1 ![1, 3]
  gather_S8388608_S8388608x1_S8388608_n_0_n_n_0_1_1_wf : GatherDims.WF S8388608 S8388608x1 S8388608 [] [0] [] [0] [] 1 ![1]

variable [Facts₀]

def comparator_i32_i32_d0 : BitVec 32 × BitVec 32 → BitVec 32 × BitVec 32 → BitVec 1 :=
  fun l r =>
    let v2 := IntOp.cmpi .slt l.1 r.1
    v2
def gather_S8388608x3_S8388608x1_S8388608x3_1_0_n_n_0_1_13 : GatherDims S8388608x3 S8388608x1 S8388608x3 where
  offsetDims := [1]
  collapsedSliceDims := [0]
  operandBatchingDims := []
  startIndicesBatchingDims := []
  startIndexMap := [0]
  indexVectorDim := 1
  sliceSizes := ![1, 3]
  wf := gather_S8388608x3_S8388608x1_S8388608x3_1_0_n_n_0_1_13_wf
def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf

class Facts : Prop extends Facts₀ where

variable [Facts]
-- ==== Proof.BlockValues.lean ====
/-
  What one grid point leaves in its two output blocks, as functions of its two input blocks.

  A point reads a coordinate block laid out [1, 3, 16, 128, 128] (batch, channel, depth, height, width) and a score
  block [1, 1, 16, 128, 128].  It writes the three channel planes one after the other into a block laid out
  [1, 16, 128, 3, 128] (batch, depth, height, channel, width): plane `k` of the input goes to the positions whose
  channel coordinate is `k`.  The three stores tile the output block, so the block ends as the input block with
  the channel axis moved from second to fourth place: entry (b, d, h, k, w) is the input's entry (b, k, d, h, w).
  Beside it the point writes, for every voxel, the word 1 if the score exceeds one half and the word 0 otherwise.
-/
import proofs.«152647_j46497315946949_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.BlockValues

open Cert.KernelIdeal Cert.KernelIdeal.Gen

variable {F : FTy → Type} [FloatOps F]

/-- The coordinate block with its channel axis moved to fourth place. -/
def channelsFourth (x0 : Vec F S1x3x16x128x128 .f32) : Vec F S1x16x128x3x128 .f32 :=
  fun y => x0 (ix5 (y 0) (y 3) (y 1) (y 2) (y 4))

/-- The score block compared with one half, one 32-bit word per voxel. -/
def aboveHalfWords (x1 : Vec F S1x1x16x128x128 .f32) : Vec F S1x16x128x128 .i32 :=
  fun y => (FloatOps.cmpf .ogt (x1 (ix5 (y 0) 0 (y 1) (y 2) (y 3))) (Scalar.ofBits .f32 0x3F000000#32)).setWidth 32

/-- One channel plane [1, 1, 16, 128, 128] viewed as [16, 128, 128] and then as [1, 16, 128, 1, 128] keeps every
    entry at its depth, height and width. -/
theorem plane_recast {α : Type} (v : S1x1x16x128x128.Idx → α) (h1 : S1x1x16x128x128.ShapeCasts S16x128x128)
    (h2 : S16x128x128.ShapeCasts S1x16x128x1x128) (x : S1x16x128x1x128.Idx) :
    shapeCast S1x16x128x1x128 (shapeCast S16x128x128 v h1) h2 x = v (ix5 0 0 (x 1) (x 2) (x 4)) := by
  have h0 : (x 0).val < 1 := (x 0).isLt
  have h3 : (x 3).val < 1 := (x 3).isLt
  refine (shapeCast_apply _ h2 x (ix3 (x 1) (x 2) (x 4)) ?_).trans ?_
  · rw [Shape.rowMajor_val_three, Shape.rowMajor_val_five]
    show ((x 1).val * 128 + (x 2).val) * 128 + (x 4).val
      = ((((x 0).val * 16 + (x 1).val) * 128 + (x 2).val) * 1 + (x 3).val) * 128 + (x 4).val
    omega
  · refine shapeCast_apply _ h1 _ (ix5 0 0 (x 1) (x 2) (x 4)) ?_
    rw [Shape.rowMajor_val_three, Shape.rowMajor_val_five]
    show ((((0 : Nat) * 1 + 0) * 16 + (x 1).val) * 128 + (x 2).val) * 128 + (x 4).val
      = ((x 1).val * 128 + (x 2).val) * 128 + (x 4).val
    omega

/-- Channel plane `k` of the coordinate block, recast and stored at channel position `k` of the output block, agrees
    there with the block whose channel axis is moved to fourth place. -/
theorem plane_agrees (x0 : Vec F S1x3x16x128x128 .f32) (k : Nat)
    (inb : ∀ a, (![0, k, 0, 0, 0] : Fin 5 → Nat) a + S1x1x16x128x128.size a ≤ S1x3x16x128x128.size a)
    (inb' : ∀ a, (![0, 0, 0, k, 0] : Fin 5 → Nat) a + S1x16x128x1x128.size a ≤ S1x16x128x3x128.size a)
    (h1 : S1x1x16x128x128.ShapeCasts S16x128x128) (h2 : S16x128x128.ShapeCasts S1x16x128x1x128)
    (x : S1x16x128x1x128.Idx) :
    shapeCast S1x16x128x1x128 (shapeCast S16x128x128
        (View.ld x0 (Rect.unit (s := S1x3x16x128x128) ![0, k, 0, 0, 0] S1x1x16x128x128.size inb)) h1) h2 x
      = channelsFourth x0 ((Rect.unit (s := S1x16x128x3x128) ![0, 0, 0, k, 0] S1x16x128x1x128.size inb').emb x) := by
  have h0 : (x 0).val < 1 := (x 0).isLt
  have h3 : (x 3).val < 1 := (x 3).isLt
  refine (plane_recast _ h1 h2 x).trans ?_
  unfold channelsFourth
  refine congrArg x0 (funext fun a => Fin.ext ?_)
  match a with
  | ⟨0, _⟩ => show 0 + 1 * 0 = 0 + 1 * (x 0).val; omega
  | ⟨1, _⟩ => show k + 1 * 0 = k + 1 * (x 3).val; omega
  | ⟨2, _⟩ => show 0 + 1 * (x 1).val = 0 + 1 * (x 1).val; rfl
  | ⟨3, _⟩ => show 0 + 1 * (x 2).val = 0 + 1 * (x 2).val; rfl
  | ⟨4, _⟩ => show 0 + 1 * (x 4).val = 0 + 1 * (x 4).val; rfl

/-- The coordinate output block after the body: the input block with its channel axis moved to fourth place. -/
theorem out_points (x0 : Vec F S1x3x16x128x128 .f32) (x1 : Vec F S1x1x16x128x128 .f32) :
    out0_2 x0 x1 = channelsFourth x0 := by
  funext y
  unfold out0_2
  refine View.canon_apply_of_pieces (channelsFourth x0) _ ?_ y (cover0_2 _ _ _ y)
  intro p hp x
  simp only [List.mem_cons, List.mem_nil_iff, or_false] at hp
  rcases hp with rfl | rfl | rfl
  · exact plane_agrees x0 2 inb_S1x3x16x128x128_S1x1x16x128x128_0_2_0_0_0 inb_S1x16x128x3x128_S1x16x128x1x128_0_0_0_2_0
      shapeCasts_S1x1x16x128x128_S16x128x128 shapeCasts_S16x128x128_S1x16x128x1x128 x
  · exact plane_agrees x0 1 inb_S1x3x16x128x128_S1x1x16x128x128_0_1_0_0_0 inb_S1x16x128x3x128_S1x16x128x1x128_0_0_0_1_0
      shapeCasts_S1x1x16x128x128_S16x128x128 shapeCasts_S16x128x128_S1x16x128x1x128 x
  · exact plane_agrees x0 0 inb_S1x3x16x128x128_S1x1x16x128x128_0_0_0_0_0 inb_S1x16x128x3x128_S1x16x128x1x128_0_0_0_0_0
      shapeCasts_S1x1x16x128x128_S16x128x128 shapeCasts_S16x128x128_S1x16x128x1x128 x

theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

/-- The mask output block after the body: one word per voxel, 1 where the score exceeds one half. -/
theorem out_mask (x0 : Vec F S1x3x16x128x128 .f32) (x1 : Vec F S1x1x16x128x128 .f32) :
    out0_3 x0 x1 = aboveHalfWords x1 := by
  unfold out0_3
  rw [View.canon_unit_zero zeros4, View.ld_unit_zero (S := S1x1x16x128x128) zeros5]
  funext y
  have h0 : (y 0).val < 1 := (y 0).isLt
  unfold k0_pay1 k0_pay5 aboveHalfWords
  refine (shapeCast_apply _ _ y (ix3 (y 1) (y 2) (y 3)) ?_).trans ?_
  · rw [Shape.rowMajor_val_three, Shape.rowMajor_val_four]
    show ((y 1).val * 128 + (y 2).val) * 128 + (y 3).val
      = (((y 0).val * 16 + (y 1).val) * 128 + (y 2).val) * 128 + (y 3).val
    omega
  · show (FloatOps.cmpf .ogt (shapeCast S16x128x128 x1 _ (ix3 (y 1) (y 2) (y 3))) (Scalar.ofBits .f32 0x3F000000#32)).setWidth 32 = _
    refine congrArg (fun v => (FloatOps.cmpf .ogt v (Scalar.ofBits .f32 0x3F000000#32)).setWidth 32) ?_
    refine shapeCast_apply _ _ _ (ix5 (y 0) 0 (y 1) (y 2) (y 3)) ?_
    rw [Shape.rowMajor_val_three, Shape.rowMajor_val_five]
    show ((((y 0).val * 1 + 0) * 16 + (y 1).val) * 128 + (y 2).val) * 128 + (y 3).val
      = ((y 1).val * 128 + (y 2).val) * 128 + (y 3).val
    omega

end Cert.KernelIdeal.BlockValues

end
-- ==== Proof.ArrayValues.lean ====
/-
  The two arrays the grid of 4 × 8 points leaves, as functions of the two argument arrays.

  Point (b, s) handles batch `b` and the sixteen depths 16·s … 16·s + 15.  Its coordinate block is rows of the argument
  [4, 3, 128, 128, 128] at batch `b`, all three channels, those depths; its score block the same rows of the argument
  [4, 1, 128, 128, 128]; its two output blocks sit at batch `b` and those depths of the arrays [4, 128, 128, 3, 128] and
  [4, 128, 128, 128].  An entry of an output block therefore comes from the argument's entry with the same batch,
  depth, height and width (and, for coordinates, the same channel): the block offsets cancel.  The 32 blocks tile each
  output array, so after the run the coordinate array is the argument with its channel axis moved to fourth place, and
  the word array is 1 exactly where the score exceeds one half.
-/
import proofs.«152647_j46497315946949_1_alg».proof.Proof.BlockValues

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValues

open Cert.KernelIdeal Cert.KernelIdeal.Gen Cert.KernelIdeal.BlockValues

variable {F : FTy → Type} [FloatOps F]
variable (m : (ℓ : Loc nD τ sig) → Buf (Elt F) ℓ)

/-- The coordinate array with its channel axis moved to fourth place. -/
def channelsFourthArray (a0 : S4x3x128x128x128.Idx → Elt F .f32) : S4x128x128x3x128.Idx → Elt F .f32 :=
  fun i => a0 (ix5 (i 0) (i 3) (i 1) (i 2) (i 4))

/-- The score array compared with one half, one 32-bit word per voxel. -/
def aboveHalfWordsArray (a1 : S4x1x128x128x128.Idx → Elt F .f32) : S4x128x128x128.Idx → Elt F .i32 :=
  fun i => (FloatOps.cmpf .ogt (a1 (ix5 (i 0) 0 (i 1) (i 2) (i 3))) (Scalar.ofBits .f32 0x3F000000#32)).setWidth 32

/-- The four windows' block indices at a point, decided over the 32 points: batch and depth-tile move together, every
    other block index is zero. -/
theorem index_facts : ∀ t : Fin cfg0.N,
    win0_0.index t (0 : Fin 5) = win0_2.index t (0 : Fin 5) ∧ win0_0.index t (1 : Fin 5) = 0
    ∧ win0_0.index t (2 : Fin 5) = win0_2.index t (1 : Fin 5) ∧ win0_0.index t (3 : Fin 5) = 0 ∧ win0_0.index t (4 : Fin 5) = 0
    ∧ win0_2.index t (2 : Fin 5) = 0 ∧ win0_2.index t (3 : Fin 5) = 0 ∧ win0_2.index t (4 : Fin 5) = 0
    ∧ win0_1.index t (0 : Fin 5) = win0_3.index t (0 : Fin 4) ∧ win0_1.index t (1 : Fin 5) = 0
    ∧ win0_1.index t (2 : Fin 5) = win0_3.index t (1 : Fin 4) ∧ win0_1.index t (3 : Fin 5) = 0 ∧ win0_1.index t (4 : Fin 5) = 0
    ∧ win0_3.index t (2 : Fin 4) = 0 ∧ win0_3.index t (3 : Fin 4) = 0 :=
  (by decide +kernel : ∀ t : Fin grid0.N, _)

/-- Every (batch, depth-tile) pair is some point's, for the coordinate output … -/
theorem index_onto_points : ∀ (q0 : Fin 4) (q1 : Fin 8), ∃ t : Fin cfg0.N, win0_2.index t = ![q0.val, q1.val, 0, 0, 0] :=
  (by decide +kernel : ∀ (q0 : Fin 4) (q1 : Fin 8), ∃ t : Fin grid0.N, win0_2.index t = ![q0.val, q1.val, 0, 0, 0])
/-- … and for the word output. -/
theorem index_onto_words : ∀ (q0 : Fin 4) (q1 : Fin 8), ∃ t : Fin cfg0.N, win0_3.index t = ![q0.val, q1.val, 0, 0] :=
  (by decide +kernel : ∀ (q0 : Fin 4) (q1 : Fin 8), ∃ t : Fin grid0.N, win0_3.index t = ![q0.val, q1.val, 0, 0])

/-! ## The coordinate array -/

/-- What point `t` writes back is block `t` of the argument with its channel axis moved. -/
theorem flushed_points (c : Dev nD) (t : Fin cfg0.N) :
    (dats m 0 c).flushed 2 t = ((cfg0.win 2).blk t).view.read (Elt F) (channelsFourthArray (V m c main_arg0)) := by
  show (cfg0.win 2).cut (grid0.coords t) ((dats m 0 c).after 2 t) = _
  rw [after0_2, out_points]
  obtain ⟨e0, e1, e2, e3, e4, e5, e6, e7, -⟩ := index_facts t
  funext j
  show V m c main_arg0 (((cfg0.win 0).blk t).view.emb (ix5 (j 0) (j 3) (j 1) (j 2) (j 4)))
    = V m c main_arg0 (ix5 ((((cfg0.win 2).blk t).view.emb j) 0) ((((cfg0.win 2).blk t).view.emb j) 3)
        ((((cfg0.win 2).blk t).view.emb j) 1) ((((cfg0.win 2).blk t).view.emb j) 2) ((((cfg0.win 2).blk t).view.emb j) 4))
  refine congrArg (V m c main_arg0) (funext fun a => Fin.ext ?_)
  match a with
  | ⟨0, _⟩ => show win0_0.index t (0 : Fin 5) * 1 + 1 * (j 0).val = win0_2.index t (0 : Fin 5) * 1 + 1 * (j 0).val; omega
  | ⟨1, _⟩ => show win0_0.index t (1 : Fin 5) * 3 + 1 * (j 3).val = win0_2.index t (3 : Fin 5) * 3 + 1 * (j 3).val; omega
  | ⟨2, _⟩ => show win0_0.index t (2 : Fin 5) * 16 + 1 * (j 1).val = win0_2.index t (1 : Fin 5) * 16 + 1 * (j 1).val; omega
  | ⟨3, _⟩ => show win0_0.index t (3 : Fin 5) * 128 + 1 * (j 2).val = win0_2.index t (2 : Fin 5) * 128 + 1 * (j 2).val; omega
  | ⟨4, _⟩ => show win0_0.index t (4 : Fin 5) * 128 + 1 * (j 4).val = win0_2.index t (4 : Fin 5) * 128 + 1 * (j 4).val; omega

/-- An index of the coordinate array is in point `t`'s block iff each coordinate is in the block's range. -/
theorem mem_blk_points (t : Fin cfg0.N) (i : S4x128x128x3x128.Idx) :
    i ∈ ((cfg0.win 2).blk t).view.set ↔ ∀ a : Fin 5, win0_2.index t a * S1x16x128x3x128.size a ≤ (i a).val
      ∧ (i a).val < win0_2.index t a * S1x16x128x3x128.size a + S1x16x128x3x128.size a := by
  show i ∈ ((View.whole main_v0_0).slice (win0_2.rect t)).set ↔ _
  rw [View.set_slice_whole, Rect.mem_set_unit]
  exact Iff.rfl

/-- Every index of the coordinate array is in the block of the point at its batch and depth tile. -/
theorem covered_points (i : S4x128x128x3x128.Idx) :
    ∃ t : Fin cfg0.N, (cfg0.win 2).flush t = true ∧ i ∈ ((cfg0.win 2).blk t).view.set := by
  have hi0 : (i 0).val < 4 := (i 0).isLt
  have hi1 : (i 1).val < 128 := (i 1).isLt
  have hi2 : (i 2).val < 128 := (i 2).isLt
  have hi3 : (i 3).val < 3 := (i 3).isLt
  have hi4 : (i 4).val < 128 := (i 4).isLt
  obtain ⟨t, ht⟩ := index_onto_points ⟨(i 0).val, hi0⟩ ⟨(i 1).val / 16, by omega⟩
  have q0 : win0_2.index t (0 : Fin 5) = (i 0).val := congrFun ht 0
  have q1 : win0_2.index t (1 : Fin 5) = (i 1).val / 16 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk_points]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 16 ≤ (i 1).val ∧ (i 1).val < win0_2.index t (1 : Fin 5) * 16 + 16; omega
  | ⟨2, _⟩ => show win0_2.index t (2 : Fin 5) * 128 ≤ (i 2).val ∧ (i 2).val < win0_2.index t (2 : Fin 5) * 128 + 128; omega
  | ⟨3, _⟩ => show win0_2.index t (3 : Fin 5) * 3 ≤ (i 3).val ∧ (i 3).val < win0_2.index t (3 : Fin 5) * 3 + 3; omega
  | ⟨4, _⟩ => show win0_2.index t (4 : Fin 5) * 128 ≤ (i 4).val ∧ (i 4).val < win0_2.index t (4 : Fin 5) * 128 + 128; omega

/-- The coordinate array after the run: the argument with its channel axis moved to fourth place. -/
theorem final_points (c : Dev nD) :
    (dats m 0 c).arrAt 2 cfg0.N = channelsFourthArray (m ((c : Thread nD τ).loc main_arg0)) :=
  (dats m 0 c).arrAt_eq_of_cover 2 (channelsFourthArray (V m c main_arg0)) (fun t _ => flushed_points m c t) covered_points

/-! ## The word array -/

/-- What point `t` writes back is block `t` of the score argument compared with one half. -/
theorem flushed_words (c : Dev nD) (t : Fin cfg0.N) :
    (dats m 0 c).flushed 3 t = ((cfg0.win 3).blk t).view.read (Elt F) (aboveHalfWordsArray (V m c main_arg1)) := by
  show (cfg0.win 3).cut (grid0.coords t) ((dats m 0 c).after 3 t) = _
  rw [after0_3, out_mask]
  obtain ⟨-, -, -, -, -, -, -, -, e0, e1, e2, e3, e4, e5, e6⟩ := index_facts t
  funext j
  show (FloatOps.cmpf .ogt (V m c main_arg1 (((cfg0.win 1).blk t).view.emb (ix5 (j 0) 0 (j 1) (j 2) (j 3)))) (Scalar.ofBits .f32 0x3F000000#32)).setWidth 32
    = (FloatOps.cmpf .ogt (V m c main_arg1 (ix5 ((((cfg0.win 3).blk t).view.emb j) 0) 0 ((((cfg0.win 3).blk t).view.emb j) 1)
        ((((cfg0.win 3).blk t).view.emb j) 2) ((((cfg0.win 3).blk t).view.emb j) 3))) (Scalar.ofBits .f32 0x3F000000#32)).setWidth 32
  refine congrArg (fun v => (FloatOps.cmpf .ogt (V m c main_arg1 v) (Scalar.ofBits .f32 0x3F000000#32)).setWidth 32) (funext fun a => Fin.ext ?_)
  match a with
  | ⟨0, _⟩ => show win0_1.index t (0 : Fin 5) * 1 + 1 * (j 0).val = win0_3.index t (0 : Fin 4) * 1 + 1 * (j 0).val; omega
  | ⟨1, _⟩ => show win0_1.index t (1 : Fin 5) * 1 + 1 * 0 = 0; omega
  | ⟨2, _⟩ => show win0_1.index t (2 : Fin 5) * 16 + 1 * (j 1).val = win0_3.index t (1 : Fin 4) * 16 + 1 * (j 1).val; omega
  | ⟨3, _⟩ => show win0_1.index t (3 : Fin 5) * 128 + 1 * (j 2).val = win0_3.index t (2 : Fin 4) * 128 + 1 * (j 2).val; omega
  | ⟨4, _⟩ => show win0_1.index t (4 : Fin 5) * 128 + 1 * (j 3).val = win0_3.index t (3 : Fin 4) * 128 + 1 * (j 3).val; omega

/-- An index of the word array is in point `t`'s block iff each coordinate is in the block's range. -/
theorem mem_blk_words (t : Fin cfg0.N) (i : S4x128x128x128.Idx) :
    i ∈ ((cfg0.win 3).blk t).view.set ↔ ∀ a : Fin 4, win0_3.index t a * S1x16x128x128.size a ≤ (i a).val
      ∧ (i a).val < win0_3.index t a * S1x16x128x128.size a + S1x16x128x128.size a := by
  show i ∈ ((View.whole main_v0_1).slice (win0_3.rect t)).set ↔ _
  rw [View.set_slice_whole, Rect.mem_set_unit]
  exact Iff.rfl

/-- Every index of the word array is in the block of the point at its batch and depth tile. -/
theorem covered_words (i : S4x128x128x128.Idx) :
    ∃ t : Fin cfg0.N, (cfg0.win 3).flush t = true ∧ i ∈ ((cfg0.win 3).blk t).view.set := by
  have hi0 : (i 0).val < 4 := (i 0).isLt
  have hi1 : (i 1).val < 128 := (i 1).isLt
  have hi2 : (i 2).val < 128 := (i 2).isLt
  have hi3 : (i 3).val < 128 := (i 3).isLt
  obtain ⟨t, ht⟩ := index_onto_words ⟨(i 0).val, hi0⟩ ⟨(i 1).val / 16, by omega⟩
  have q0 : win0_3.index t (0 : Fin 4) = (i 0).val := congrFun ht 0
  have q1 : win0_3.index t (1 : Fin 4) = (i 1).val / 16 := congrFun ht 1
  have q2 : win0_3.index t (2 : Fin 4) = 0 := congrFun ht 2
  have q3 : win0_3.index t (3 : Fin 4) = 0 := congrFun ht 3
  refine ⟨t, flush0_3 t, ?_⟩
  rw [mem_blk_words]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-- The word array after the run: 1 exactly where the score exceeds one half. -/
theorem final_words (c : Dev nD) :
    (dats m 0 c).arrAt 3 cfg0.N = aboveHalfWordsArray (m ((c : Thread nD τ).loc main_arg1)) :=
  (dats m 0 c).arrAt_eq_of_cover 3 (aboveHalfWordsArray (V m c main_arg1)) (fun t _ => flushed_words m c t) covered_words

end Cert.KernelIdeal.ArrayValues

end
-- ==== Proof.Compaction.lean ====
/-
  The compaction both programs end with, named once, and the kernel's run read through it.

  From a table of points [N, 3] and a one-bit mask [N] (N = 4·128·128·128 voxels in scan order) the programs compute:
  the key 0 where the mask is set and 1 elsewhere; the stable sort of the voxel numbers by that key, which lists the
  marked voxels first, each group in scan order; the table's rows and the mask's bits gathered in that order; the rows
  multiplied by their gathered bit, so that rows of unmarked voxels become zero; and the number of marked voxels.
  Nothing below looks inside the sort, the gathers or the sum: they are the same operations in both programs, applied
  to a table and a mask that the two programs build differently.
-/
import proofs.«152647_j46497315946949_1_alg».proof.Proof.ArrayValues
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Compaction

open Cert.KernelIdeal Cert.KernelIdeal.Gen Cert.KernelIdeal.ArrayValues Idealize.ShloMosaic.StableHlo

variable {F : FTy → Type} [FloatOps F]

/-- The voxel numbers sorted stably by the key "0 if marked, 1 if not": marked voxels first, in scan order. -/
def order (mask : IVec S8388608 1) : IVec S8388608 32 :=
  (Host.sort2 S8388608 0 comparator_i32_i32_d0
    (select mask (broadcastInDim S8388608 ![] bcast_S_S8388608 (constantI S_ 32 0#32))
      (broadcastInDim S8388608 ![] bcast_S_S8388608 (constantI S_ 32 1#32)))
    (iotaInDim S8388608 32 0)).2

/-- A list of row numbers as gather start indices: a negative number counts from the end, and each becomes a row of one. -/
def startRows (o : IVec S8388608 32) : IVec S8388608x1 32 :=
  broadcastInDim S8388608x1 ![0] bcast_S8388608_S8388608x1_0
    (select (cmpi .slt o (broadcastInDim S8388608 ![] bcast_S_S8388608 (constantI S_ 32 0#32)))
      (addi o (broadcastInDim S8388608 ![] bcast_S_S8388608 (constantI S_ 32 8388608#32))) o)

/-- The mask's bits in sorted order. -/
def valid (mask : IVec S8388608 1) : IVec S8388608 1 :=
  Host.gather gather_S8388608_S8388608x1_S8388608_n_0_n_n_0_1_1 mask (startRows (order mask))

/-- The table's rows in sorted order, each multiplied by its bit. -/
def points (pts : FVec F S8388608x3 .f32) (mask : IVec S8388608 1) : FVec F S8388608x3 .f32 :=
  mulf (Host.gather gather_S8388608x3_S8388608x1_S8388608x3_1_0_n_n_0_1_13 pts (startRows (order mask)))
    (broadcastInDim S8388608x3 ![0, 1] bcast_S8388608x1_S8388608x3_0_1
      (uitofp .f32 (broadcastInDim S8388608x1 ![0] bcast_S8388608_S8388608x1_0 (valid mask))))

/-- The number of marked voxels. -/
def count (mask : IVec S8388608 1) : IVec S_ 32 :=
  Host.reduce IntOp.addi (extui 32 mask natLt_1_32) (constantI S_ 32 0#32) reducesTo_S8388608_S_d0 h_S_

/-- The kernel's table: the coordinate array the region leaves, its last two axes exchanged, read as [N, 3]. -/
def tableOf (a : S4x128x128x3x128.Idx → Elt F .f32) : FVec F S8388608x3 .f32 :=
  shapeCast S8388608x3 (transpose S4x128x128x128x3 [0, 1, 2, 4, 3] a transposes_S4x128x128x3x128_S4x128x128x128x3_0_1_2_4_3)
    shapeCasts_S4x128x128x128x3_S8388608x3

/-- The kernel's mask: the word array the region leaves, read as [N], a bit set where the word is not zero. -/
def maskOf (w : S4x128x128x128.Idx → Elt F .i32) : IVec S8388608 1 :=
  cmpi .ne (shapeCast S8388608 w shapeCasts_S4x128x128x128_S8388608)
    (broadcastInDim S8388608 ![] bcast_S_S8388608 (constantI S_ 32 0#32))

/-! ## The lines after the region, from any contents of the buffers -/

theorem tail_points (W : Valuation τ sig (Elt F)) :
    StableHlo.after (List.flatten [hostOps1, hostOps1_1, hostOps1_2, hostOps1_3]) W (Proc.devRef .tc main_v26)
      = points (tableOf (W (Proc.devRef .tc main_v0_0))) (maskOf (W (Proc.devRef .tc main_v0_1))) := by
  simp only [hostOps1, hostOps1_1, hostOps1_2, hostOps1_3, List.flatten_cons, List.flatten_nil, List.append_nil,
    List.cons_append, List.nil_append]
  after_results_simp
  rfl

theorem tail_valid (W : Valuation τ sig (Elt F)) :
    StableHlo.after (List.flatten [hostOps1, hostOps1_1, hostOps1_2, hostOps1_3]) W (Proc.devRef .tc main_v22)
      = valid (maskOf (W (Proc.devRef .tc main_v0_1))) := by
  simp only [hostOps1, hostOps1_1, hostOps1_2, hostOps1_3, List.flatten_cons, List.flatten_nil, List.append_nil,
    List.cons_append, List.nil_append]
  after_results_simp
  rfl

theorem tail_count (W : Valuation τ sig (Elt F)) :
    StableHlo.after (List.flatten [hostOps1, hostOps1_1, hostOps1_2, hostOps1_3]) W (Proc.devRef .tc main_v28)
      = count (maskOf (W (Proc.devRef .tc main_v0_1))) := by
  simp only [hostOps1, hostOps1_1, hostOps1_2, hostOps1_3, List.flatten_cons, List.flatten_nil, List.append_nil,
    List.cons_append, List.nil_append]
  after_results_simp
  rfl

end Cert.KernelIdeal.Compaction

end
-- ==== Proof.KernelRun.lean ====
/-
  The kernel's whole run, read: its three results are the compaction of the table and mask it built in its region.

  After the region the coordinate array holds the argument with the channel axis in fourth place and the word array
  holds 1 where the score exceeds one half; the lines that follow exchange the table's last two axes, flatten both, turn
  the words into bits, and compact.  The two arguments are never written.
-/
import proofs.«152647_j46497315946949_1_alg».proof.Proof.Compaction

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.ArrayValues Cert.KernelIdeal.Compaction

variable {F : FTy → Type} [FloatOps F]
variable (m : (ℓ : Loc nD τ sig) → Buf (Elt F) ℓ) (ρ : Dev nD → PrngReg)

/-- The table the kernel compacts, as a function of the coordinate argument. -/
abbrev table (c : Dev nD) : FVec F S8388608x3 .f32 :=
  tableOf (channelsFourthArray (m ((c : Thread nD τ).loc main_arg0)))

/-- The mask the kernel compacts by, as a function of the score argument. -/
abbrev mask (c : Dev nD) : IVec S8388608 1 :=
  maskOf (aboveHalfWordsArray (m ((c : Thread nD τ).loc main_arg1)))

/-- The coordinate array as the lines after the region find it. -/
theorem region_points (c : Dev nD) :
    Pipeline.withArrays spec0 c (V0 m c) (fun w => (dats m 0 c).arrAt w cfg0.N) (Proc.devRef .tc main_v0_0)
      = channelsFourthArray (m ((c : Thread nD τ).loc main_arg0)) :=
  (Pipeline.withArrays_arr spec0 launch0.win.arr_inj c _ _ 2).trans (final_points m c)

/-- The word array as the lines after the region find it. -/
theorem region_words (c : Dev nD) :
    Pipeline.withArrays spec0 c (V0 m c) (fun w => (dats m 0 c).arrAt w cfg0.N) (Proc.devRef .tc main_v0_1)
      = aboveHalfWordsArray (m ((c : Thread nD τ).loc main_arg1)) :=
  (Pipeline.withArrays_arr spec0 launch0.win.arr_inj c _ _ 3).trans (final_words m c)

theorem after_points (c : Dev nD) :
    Pipeline.afterTail₀ cfgs (dats m) 0 (V0 m) [hostOps1, hostOps1_1, hostOps1_2, hostOps1_3] c main_v26
      = points (table m c) (mask m c) := by
  unfold Pipeline.afterTail₀
  exact (tail_points _).trans
    (congrArg₂ (fun a w => points (tableOf a) (maskOf w)) (region_points m c) (region_words m c))

theorem after_valid (c : Dev nD) :
    Pipeline.afterTail₀ cfgs (dats m) 0 (V0 m) [hostOps1, hostOps1_1, hostOps1_2, hostOps1_3] c main_v22
      = valid (mask m c) := by
  unfold Pipeline.afterTail₀
  exact (tail_valid _).trans (congrArg (fun w => valid (maskOf w)) (region_words m c))

theorem after_count (c : Dev nD) :
    Pipeline.afterTail₀ cfgs (dats m) 0 (V0 m) [hostOps1, hostOps1_1, hostOps1_2, hostOps1_3] c main_v28
      = count (mask m c) := by
  unfold Pipeline.afterTail₀
  exact (tail_count _).trans (congrArg (fun w => count (maskOf w)) (region_words m c))

/-- Every weakly fair execution of the kernel's program terminates with the three results at the compaction of its
    table and mask, and the two arguments unchanged. -/
theorem run : θ_run defs (onTc (τ := τ) (main (F := F))) ⟨m, fun _ => 0, ρ⟩ fun r => ∀ c : Dev nD,
      r.2.mem ((c.tc : Thread nD τ).loc main_v26) = points (table m c) (mask m c)
      ∧ r.2.mem ((c.tc : Thread nD τ).loc main_v22) = valid (mask m c)
      ∧ r.2.mem ((c.tc : Thread nD τ).loc main_v28) = count (mask m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v26 (Pipeline.mem_restRefs_of main_v26 rfl (by decide))).trans (after_points m c),
     ((h c).2 main_v22 (Pipeline.mem_restRefs_of main_v22 rfl (by decide))).trans (after_valid m c),
     ((h c).2 main_v28 (Pipeline.mem_restRefs_of main_v28 rfl (by decide))).trans (after_count m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.KernelRun

end
-- ==== Proof.LibMaskWord.lean ====
/-
  A one-bit mask that travels as a 32-bit word.

  A comparison's result is one bit per element. Stored in a buffer of 32-bit words it is zero-extended (the word is
  `0` or `1`), and the reader recovers the bit by asking whether the word differs from zero. The round trip is the
  identity on every mask, of any shape: a bit is `0` or `1`, its extension is the word `0` or the word `1`, and only the
  second differs from the zero word.
-/
import Idealize.ShloMosaic.PureOps

namespace Idealize.ShloMosaic.MaskWord

open Idealize.ShloMosaic

/-- One bit, zero-extended to a 32-bit word and compared with the zero word for inequality, is the bit. -/
theorem ne_zero_setWidth (b : BitVec 1) : IntOp.cmpi .ne (b.setWidth 32) 0#32 = b := by
  rcases BitVec.eq_zero_or_eq_one b with h | h <;> subst h <;> decide

/-- A mask of any shape, zero-extended element by element to 32-bit words and compared with an all-zero vector for
    inequality, is the mask. -/
theorem cmpi_ne_extui_zero {s : Shape} (b : IVec s 1) (h : 1 < 32) (z : IVec s 32) (hz : ∀ i, z i = 0#32) :
    cmpi .ne (extui 32 b h) z = b := by
  funext i
  show IntOp.cmpi .ne ((b i).setWidth 32) (z i) = b i
  rw [hz i]
  exact ne_zero_setWidth (b i)

end Idealize.ShloMosaic.MaskWord
-- ==== Proof.SameTableAndMask.lean ====
/-
  The table and the mask the kernel builds are the ones a direct reading of the arguments gives.

  Table.  The kernel's region leaves T[b, d, h, k, w] = coords[b, k, d, h, w]; exchanging T's last two axes gives the array
  whose entry (b, d, h, w, k) is coords[b, k, d, h, w] — which is coords with its channel axis moved last.  Flattened
  in row-major order the two are one [N, 3] table.

  Mask.  The region leaves the word 1 where scores[b, 0, d, h, w] exceeds one half and 0 elsewhere.  The arrays
  [4, 128, 128, 128] and [4, 1, 128, 128, 128] have the same row-major order of voxels (the unit axis contributes
  nothing to a position), so flattening commutes with dropping that axis; and a word that is 0 or 1 differs from
  zero exactly when it is 1.  Hence the bit "the word is not zero" at voxel n is the bit "score n exceeds one half".
-/
import proofs.«152647_j46497315946949_1_alg».proof.Proof.Compaction
import proofs.«152647_j46497315946949_1_alg».proof.Proof.LibMaskWord

set_option maxRecDepth 16384

noncomputable section

open Idealize.ShloMosaic Idealize.ShloMosaic.TcCoe Idealize.SL.Sem Idealize.ShloMosaic.ValueIdx

namespace Cert.KernelIdeal.SameTableAndMask

open Cert.KernelIdeal Cert.KernelIdeal.Gen Cert.KernelIdeal.ArrayValues Cert.KernelIdeal.Compaction

variable {F : FTy → Type} [FloatOps F]

/-- Moving the channel axis to fourth place and then exchanging the last two axes moves it last. -/
theorem channels_last (a0 : S4x3x128x128x128.Idx → Elt F .f32)
    (hK : S4x128x128x3x128.Transposes [0, 1, 2, 4, 3] S4x128x128x128x3)
    (hR : S4x3x128x128x128.Transposes [0, 2, 3, 4, 1] S4x128x128x128x3) :
    transpose S4x128x128x128x3 [0, 1, 2, 4, 3] (channelsFourthArray a0) hK
      = transpose S4x128x128x128x3 [0, 2, 3, 4, 1] a0 hR := by
  funext j
  have e1 := transpose_apply [0, 1, 2, 4, 3] (channelsFourthArray a0) hK j (ix5 (j 0) (j 1) (j 2) (j 4) (j 3))
    (fun b => by match b with | ⟨0, _⟩ => rfl | ⟨1, _⟩ => rfl | ⟨2, _⟩ => rfl | ⟨3, _⟩ => rfl | ⟨4, _⟩ => rfl)
  have e2 := transpose_apply [0, 2, 3, 4, 1] a0 hR j (ix5 (j 0) (j 4) (j 1) (j 2) (j 3))
    (fun b => by match b with | ⟨0, _⟩ => rfl | ⟨1, _⟩ => rfl | ⟨2, _⟩ => rfl | ⟨3, _⟩ => rfl | ⟨4, _⟩ => rfl)
  rw [e1, e2]
  rfl

/-- The kernel's table is the coordinate argument with its channel axis moved last, read as [N, 3]. -/
theorem table_eq (a0 : S4x3x128x128x128.Idx → Elt F .f32)
    (hR : S4x3x128x128x128.Transposes [0, 2, 3, 4, 1] S4x128x128x128x3) (hC : S4x128x128x128x3.ShapeCasts S8388608x3) :
    tableOf (channelsFourthArray a0) = shapeCast S8388608x3 (transpose S4x128x128x128x3 [0, 2, 3, 4, 1] a0 hR) hC := by
  unfold tableOf
  rw [channels_last a0 _ hR]

/-- Voxel `n` of the flattened word array is the word for voxel `n` of the flattened score argument. -/
theorem words_flat (a1 : S4x1x128x128x128.Idx → Elt F .f32) (hW : S4x128x128x128.ShapeCasts S8388608)
    (hS : S4x1x128x128x128.ShapeCasts S8388608) (hb : S_.BroadcastsInDim S8388608 ![]) :
    shapeCast S8388608 (aboveHalfWordsArray a1) hW
      = extui 32 (cmpf .ogt (shapeCast S8388608 a1 hS) (broadcastInDim S8388608 ![] hb (constant S_ .f32 0x3F000000#32)))
          (by decide) := by
  funext n
  have hi : (S4x128x128x128.rowMajor (Shape.reshapeEquiv hW n)).val = (S8388608.rowMajor n).val :=
    Shape.rowMajor_reshapeEquiv hW n
  show (FloatOps.cmpf .ogt (a1 (ix5 ((Shape.reshapeEquiv hW n) 0) 0 ((Shape.reshapeEquiv hW n) 1)
      ((Shape.reshapeEquiv hW n) 2) ((Shape.reshapeEquiv hW n) 3))) (Scalar.ofBits .f32 0x3F000000#32)).setWidth 32
    = (FloatOps.cmpf .ogt (shapeCast S8388608 a1 hS n) (FloatOps.ofBits .f32 0x3F000000#32)).setWidth 32
  refine congrArg (fun v => (FloatOps.cmpf .ogt v (FloatOps.ofBits .f32 0x3F000000#32)).setWidth 32) ?_
  refine (shapeCast_apply a1 hS n _ ?_).symm
  rw [← hi, Shape.rowMajor_val_five, Shape.rowMajor_val_four]
  show (((((Shape.reshapeEquiv hW n) 0).val * 1 + 0) * 128 + ((Shape.reshapeEquiv hW n) 1).val) * 128
      + ((Shape.reshapeEquiv hW n) 2).val) * 128 + ((Shape.reshapeEquiv hW n) 3).val
    = ((((Shape.reshapeEquiv hW n) 0).val * 128 + ((Shape.reshapeEquiv hW n) 1).val) * 128
      + ((Shape.reshapeEquiv hW n) 2).val) * 128 + ((Shape.reshapeEquiv hW n) 3).val
  omega

/-- The kernel's mask is the flattened score argument compared with one half. -/
theorem mask_eq (a1 : S4x1x128x128x128.Idx → Elt F .f32) (hS : S4x1x128x128x128.ShapeCasts S8388608)
    (hb : S_.BroadcastsInDim S8388608 ![]) :
    maskOf (aboveHalfWordsArray a1)
      = cmpf .ogt (shapeCast S8388608 a1 hS) (broadcastInDim S8388608 ![] hb (constant S_ .f32 0x3F000000#32)) := by
  unfold maskOf
  rw [words_flat a1 _ hS hb]
  exact MaskWord.cmpi_ne_extui_zero _ _ _ (fun i => rfl)

end Cert.KernelIdeal.SameTableAndMask

end
-- ==== Proof.lean ====
/-
  The kernel and the reference compute the same compaction.

  Both programs build a table of N = 4·128·128·128 points (one row of three coordinates per voxel, in scan order) and a
  one-bit mask (the voxel's score exceeds one half), and then run the same compaction on them: a stable sort that lists
  the marked voxels first, two gathers in that order, a product that zeroes the rows of unmarked voxels, and a count.

  The reference reads table and mask straight off its arguments: the coordinate array with its channel axis moved
  last, and the score array compared with one half, both flattened.  The kernel builds them in a grid of 4 × 8 points:
  each point copies its three channel planes into a block with the channel axis in fourth place and writes the word 1
  or 0 per voxel; after the grid the last two axes of the coordinate array are exchanged, both arrays are flattened,
  and a word becomes the bit "not zero".  Moving the channel axis to fourth place and then exchanging the last two
  axes moves it last, and a word that is 0 or 1 is not zero exactly when it is 1: the two tables are equal and the two
  masks are equal, entry by entry, for all extended-real inputs (no finiteness is used; nothing is added or
  multiplied before the shared compaction).  Equal inputs to the same compaction give equal results.

  The word-level program is never compared with anything here: the idealization rewrote no operation, so the
  statement relating it to its idealization is empty, and its frame is the generated one.
-/
import proofs.«152647_j46497315946949_1_alg».proof.Defs
import proofs.«152647_j46497315946949_1_alg».proof.Proof.Gen.Kernel
import proofs.«152647_j46497315946949_1_alg».proof.Proof.Gen.Kernel.Skeleton
import proofs.«152647_j46497315946949_1_alg».proof.Proof.Gen.Kernel.Launch
import proofs.«152647_j46497315946949_1_alg».proof.Proof.Gen.Kernel.Points
import proofs.«152647_j46497315946949_1_alg».proof.Proof.Gen.Kernel.Frame
import proofs.«152647_j46497315946949_1_alg».proof.Proof.Gen.KernelIdeal
import proofs.«152647_j46497315946949_1_alg».proof.Proof.Gen.KernelIdeal.Skeleton
import proofs.«152647_j46497315946949_1_alg».proof.Proof.Gen.KernelIdeal.Launch
import proofs.«152647_j46497315946949_1_alg».proof.Proof.Gen.KernelIdeal.Points
import proofs.«152647_j46497315946949_1_alg».proof.Proof.Gen.KernelIdeal.Frame
import proofs.«152647_j46497315946949_1_alg».proof.Proof.Gen.ReferenceIdeal
import proofs.«152647_j46497315946949_1_alg».proof.Proof.Gen.ReferenceIdeal.Run
import proofs.«152647_j46497315946949_1_alg».proof.Proof.Gen.Pre_finite_inputs
import proofs.«152647_j46497315946949_1_alg».proof.Proof.KernelRun
import proofs.«152647_j46497315946949_1_alg».proof.Proof.SameTableAndMask
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Compaction Cert.KernelIdeal.KernelRun Cert.KernelIdeal.SameTableAndMask

/-- The word-level program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- No operation was rewritten by the idealization. -/
theorem preserves : Cert.preserves_Kernel_KernelIdeal := trivial

/-- From memories that agree on the arguments both programs end with the compaction of the same table by the same
    mask: the kernel's run ends there by construction, and the reference's table and mask are the kernel's. -/
theorem algebraic : Cert.algebraic_KernelIdeal_ReferenceIdeal := by
  intro m ρ m' ρ' _ hagree
  refine ⟨fun c => points (table m c) (mask m c), fun c => valid (mask m c), fun c => count (mask m c),
    Cert.KernelIdeal.KernelRun.run (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2]
    show _ = points (tableOf _) (maskOf _)
    rw [table_eq _ Cert.ReferenceIdeal.Gen.transposes_S4x3x128x128x128_S4x128x128x128x3_0_2_3_4_1
        Cert.ReferenceIdeal.Gen.shapeCasts_S4x128x128x128x3_S8388608x3,
      mask_eq _ Cert.ReferenceIdeal.Gen.shapeCasts_S4x1x128x128x128_S8388608 Cert.ReferenceIdeal.Gen.bcast_S_S8388608]
    rfl
  · rw [(hagree c).2]
    show _ = valid (maskOf _)
    rw [mask_eq _ Cert.ReferenceIdeal.Gen.shapeCasts_S4x1x128x128x128_S8388608 Cert.ReferenceIdeal.Gen.bcast_S_S8388608]
    rfl
  · rw [(hagree c).2]
    show _ = count (maskOf _)
    rw [mask_eq _ Cert.ReferenceIdeal.Gen.shapeCasts_S4x1x128x128x128_S8388608 Cert.ReferenceIdeal.Gen.bcast_S_S8388608]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
